-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S32x11008x2 : Shape := ⟨3, ![32, 11008, 2]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008x2 : S_.BroadcastsInDim S32x11008x2 (![] : Fin 0 → Fin S32x11008x2.rank)
  reducesTo_S32x11008x2_S_d0_1_2 : S32x11008x2.ReducesTo [0, 1, 2] S_

variable [Facts]

def fn {F : FTy → Type} [FloatOps F] (main_arg0 : FVec F S4x2048x4096 .f32) (main_arg1 : IVec S11008x4096 32) (main_arg2 : FVec F S32x11008x2 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008x2 .f32 := Host.absf main_arg2
  let main_cst_0 : FVec F S_ .f32 := constant S_ .f32 0x7F800000#32
  let main_v5 : FVec F S32x11008x2 .f32 := broadcastInDim S32x11008x2 ![] bcast_S_S32x11008x2 main_cst_0
  let main_v6 : IVec S32x11008x2 1 := cmpf .olt main_v4 main_v5
  let main_c_1 : IVec S_ 1 := constantI S_ 1 1#1
  let main_v7 : IVec S_ 1 := (fun x v => Host.reduce IntOp.andi x v reducesTo_S32x11008x2_S_d0_1_2 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S32x11008x2 : Shape := ⟨3, ![32, 11008, 2]⟩
abbrev S8192x4096 : Shape := ⟨2, ![8192, 4096]⟩
abbrev S11008x32x2 : Shape := ⟨3, ![11008, 32, 2]⟩
abbrev S8192x11008 : Shape := ⟨2, ![8192, 11008]⟩
abbrev S512x2048 : Shape := ⟨2, ![512, 2048]⟩
abbrev S256x2048 : Shape := ⟨2, ![256, 2048]⟩
abbrev S256x16x2 : Shape := ⟨3, ![256, 16, 2]⟩
abbrev S512x256 : Shape := ⟨2, ![512, 256]⟩
abbrev S256x16x128 : Shape := ⟨3, ![256, 16, 128]⟩
abbrev S256x16x1 : Shape := ⟨3, ![256, 16, 1]⟩
abbrev S256x16 : Shape := ⟨2, ![256, 16]⟩
abbrev S2048x256 : Shape := ⟨2, ![2048, 256]⟩
abbrev S4x2048x11008 : Shape := ⟨3, ![4, 2048, 11008]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S32x11008x2, .f32⟩
  | .hbm, ⟨3, _⟩ => ⟨S8192x4096, .f32⟩
  | .hbm, ⟨4, _⟩ => ⟨S11008x32x2, .f32⟩
  | .hbm, ⟨5, _⟩ => ⟨S8192x11008, .f32⟩
  | .hbm, ⟨6, _⟩ => ⟨S4x2048x11008, .f32⟩
  | .local _ .vmem, ⟨0, _⟩ => ⟨S512x2048, .f32⟩
  | .local _ .vmem, ⟨1, _⟩ => ⟨S512x2048, .f32⟩
  | .local _ .vmem, ⟨2, _⟩ => ⟨S256x2048, .i32⟩
  | .local _ .vmem, ⟨3, _⟩ => ⟨S256x2048, .i32⟩
  | .local _ .vmem, ⟨4, _⟩ => ⟨S256x16x2, .f32⟩
  | .local _ .vmem, ⟨5, _⟩ => ⟨S256x16x2, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 43, 2], ![false, false, false]⟩

def k0_cond2 (i : grid0.Coords) : BitVec 1 :=
  let arg2 : BitVec 32 := BitVec.ofNat 32 (i 2).val
  let c1_i32 : BitVec 32 := 1#32
  let v30 : BitVec 1 := Scalar.cmpi .eq arg2 c1_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x16x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  transposes_S32x11008x2_S11008x32x2_1_0_2 : S32x11008x2.Transposes [1, 0, 2] S11008x32x2
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S256x2048_S256x16x128 : S256x2048.ShapeCasts S256x16x128
  inb_S256x16x2_S256x16x1_0_0_0 : ∀ a, (![0, 0, 0] : Fin 3 → Nat) a + S256x16x1.size a ≤ S256x16x2.size a
  h_S256x16x1 : 0 < S256x16x1.numel
  shapeCasts_S256x16x1_S256x16 : S256x16x1.ShapeCasts S256x16
  inb_S256x16x2_S256x16x1_0_0_1 : ∀ a, (![0, 0, 1] : Fin 3 → Nat) a + S256x16x1.size a ≤ S256x16x2.size a
  shapeCasts_S256x16_S256x16x1 : S256x16.ShapeCasts S256x16x1
  broadcasts_S256x16x1_S256x16x128 : S256x16x1.Broadcasts S256x16x128
  shapeCasts_S256x16x128_S256x2048 : S256x16x128.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  transposes_S256x2048_p1_0_S2048x256 : S256x2048.Transposes [1, 0] S2048x256
  shapeCasts_S8192x11008_S4x2048x11008 : S8192x11008.ShapeCasts S4x2048x11008
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x4096.size a
  hwx0_1 : ∀ i : grid0.Coords, EltTy.bits .i32 = 32 ∨ (Rect.block (s := S11008x4096) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x2.size a ≤ S11008x32x2.size a
  hwx0_2 : ∀ i : grid0.Coords, EltTy.bits .f32 = 32 ∨ (Rect.block (s := S11008x32x2) S256x16x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x11008.size a
  hwx0_3 : ∀ i : grid0.Coords, EltTy.bits .f32 = 32 ∨ (Rect.block (s := S8192x11008) S512x256.size (cc0_transform_3 i) (hinb0_3 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x16x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S32x11008x2 : Shape := ⟨3, ![32, 11008, 2]⟩
abbrev S32x11008x1 : Shape := ⟨3, ![32, 11008, 1]⟩
abbrev S32x11008 : Shape := ⟨2, ![32, 11008]⟩
abbrev S11008x32 : Shape := ⟨2, ![11008, 32]⟩
abbrev S11008x32x128 : Shape := ⟨3, ![11008, 32, 128]⟩
abbrev S_ : Shape := ⟨0, ![]⟩
abbrev S11008x32x1 : Shape := ⟨3, ![11008, 32, 1]⟩
abbrev S4x2048x11008 : Shape := ⟨3, ![4, 2048, 11008]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S32x11008x2, .f32⟩
  | .hbm, ⟨3, _⟩ => ⟨S32x11008x1, .f32⟩
  | .hbm, ⟨4, _⟩ => ⟨S32x11008, .f32⟩
  | .hbm, ⟨5, _⟩ => ⟨S11008x32, .f32⟩
  | .hbm, ⟨6, _⟩ => ⟨S32x11008x1, .f32⟩
  | .hbm, ⟨7, _⟩ => ⟨S32x11008, .f32⟩
  | .hbm, ⟨8, _⟩ => ⟨S11008x32, .f32⟩
  | .hbm, ⟨9, _⟩ => ⟨S11008x4096, .f32⟩
  | .hbm, ⟨10, _⟩ => ⟨S11008x32x128, .f32⟩
  | .hbm, ⟨11, _⟩ => ⟨S_, .f32⟩
  | .hbm, ⟨12, _⟩ => ⟨S11008x32x128, .f32⟩
  | .hbm, ⟨13, _⟩ => ⟨S11008x32x128, .f32⟩
  | .hbm, ⟨14, _⟩ => ⟨S11008x32x1, .f32⟩
  | .hbm, ⟨15, _⟩ => ⟨S11008x32x128, .f32⟩
  | .hbm, ⟨16, _⟩ => ⟨S11008x32x128, .f32⟩
  | .hbm, ⟨17, _⟩ => ⟨S11008x32x1, .f32⟩
  | .hbm, ⟨18, _⟩ => ⟨S11008x32x128, .f32⟩
  | .hbm, ⟨19, _⟩ => ⟨S11008x32x128, .f32⟩
  | .hbm, ⟨20, _⟩ => ⟨S11008x4096, .f32⟩
  | .hbm, ⟨21, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]

class Facts₀ : Prop where
  slices_S32x11008x2_S32x11008x1_0_0_0 : S32x11008x2.Slices ![0, 0, 0] S32x11008x1
  shapeCasts_S32x11008x1_S32x11008 : S32x11008x1.ShapeCasts S32x11008
  transposes_S32x11008_S11008x32_1_0 : S32x11008.Transposes [1, 0] S11008x32
  slices_S32x11008x2_S32x11008x1_0_0_1 : S32x11008x2.Slices ![0, 0, 1] S32x11008x1
  shapeCasts_S11008x4096_S11008x32x128 : S11008x4096.ShapeCasts S11008x32x128
  bcast_S_S11008x32x128 : S_.BroadcastsInDim S11008x32x128 (![] : Fin 0 → Fin S11008x32x128.rank)
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pieces.lean ====
/-
  What the kernel body leaves behind at a grid point, as values.

  The body runs in two ways. At a point that begins a pass over the input features (the reduction coordinate is 0) it
  zeroes the accumulator, adds the point's partial product to it and writes nothing out. At a point that ends the pass
  (the reduction coordinate is 1) it adds the point's partial product to the accumulator the point before left, and
  copies the accumulator into the output block. In both, "adding the point's partial product" is the one accumulation
  step `k0_pay2` of the point's three input blocks: the integer codes, the scale and zero-point entries of the third
  block (its two slices along the last axis), the activations, and the accumulator so far.
-/
import proofs.«110867_j55585466745295_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- The scale entries `(r, g, 0)` of a staged block of scales and zero points. -/
abbrev scaleCol (x2 : Vec F S256x16x2 .f32) : Vec F S256x16x1 .f32 :=
  View.ld x2 (Rect.unit (s := S256x16x2) ![0, 0, 0] S256x16x1.size inb_S256x16x2_S256x16x1_0_0_0)

/-- Its zero-point entries `(r, g, 1)`. -/
abbrev zeroCol (x2 : Vec F S256x16x2 .f32) : Vec F S256x16x1 .f32 :=
  View.ld x2 (Rect.unit (s := S256x16x2) ![0, 0, 1] S256x16x1.size inb_S256x16x2_S256x16x1_0_0_1)

/-- A point that begins a pass leaves in the accumulator one accumulation step from the zero block. -/
theorem acc_first (c : Dev nD) (i : grid0.Coords) (a3 : Memref sig .tc .vmem S512x2048 .f32) (h3 : a3.IsWhole) (a4 : Memref sig .tc .vmem S256x2048 .i32) (h4 : a4.IsWhole) (a5 : Memref sig .tc .vmem S256x16x2 .f32) (h5 : a5.IsWhole) (a6 : Memref sig .tc .vmem S512x256 .f32) (h6 : a6.IsWhole) (a7 : Memref sig .tc .vmem S512x256 .f32) (h7 : a7.IsWhole) (hc0 : cond0_0 i) (hc1 : ¬cond0_1 i)
    (x0 : Vec F S512x2048 .f32) (x1 : Vec F S256x2048 .i32) (x2 : Vec F S256x16x2 .f32) :
    sout0_A_0 c i a3 h3 a4 h4 a5 h5 a6 h6 a7 h7 hc0 hc1 x0 x1 x2 = k0_pay2 x1 (scaleCol x2) (zeroCol x2) x0 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x256) zero_offsets, View.readCov_unit_zero (S := S512x256) _ zero_offsets]
  simp only [View.readAt_eq_ld, h3.read_unread, h4.read_unread, h5.read_unread,
    View.ld_unit_zero (S := S512x2048) zero_offsets, View.ld_unit_zero (S := S256x2048) zero_offsets]

/-- A point that ends a pass leaves in the accumulator one accumulation step from what the point before left, -/
theorem acc_last (c : Dev nD) (i : grid0.Coords) (a3 : Memref sig .tc .vmem S512x2048 .f32) (h3 : a3.IsWhole) (a4 : Memref sig .tc .vmem S256x2048 .i32) (h4 : a4.IsWhole) (a5 : Memref sig .tc .vmem S256x16x2 .f32) (h5 : a5.IsWhole) (a6 : Memref sig .tc .vmem S512x256 .f32) (h6 : a6.IsWhole) (a7 : Memref sig .tc .vmem S512x256 .f32) (h7 : a7.IsWhole) (hc0 : ¬cond0_0 i) (hc1 : cond0_1 i)
    (x0 : Vec F S512x2048 .f32) (x1 : Vec F S256x2048 .i32) (x2 : Vec F S256x16x2 .f32) (xs0 : Vec F S512x256 .f32) :
    sout0_B_0 c i a3 h3 a4 h4 a5 h5 a6 h6 a7 h7 hc0 hc1 x0 x1 x2 xs0 = k0_pay2 x1 (scaleCol x2) (zeroCol x2) x0 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero (S := S512x256) zero_offsets]
  simp only [View.readAt_eq_ld, h3.read_unread, h4.read_unread, h5.read_unread, h7.read_unread,
    View.ld_unit_zero (S := S512x2048) zero_offsets, View.ld_unit_zero (S := S256x2048) zero_offsets,
    View.ld_unit_zero (S := S512x256) zero_offsets]

/-- and writes the same block out. -/
theorem out_last (c : Dev nD) (i : grid0.Coords) (a3 : Memref sig .tc .vmem S512x2048 .f32) (h3 : a3.IsWhole) (a4 : Memref sig .tc .vmem S256x2048 .i32) (h4 : a4.IsWhole) (a5 : Memref sig .tc .vmem S256x16x2 .f32) (h5 : a5.IsWhole) (a6 : Memref sig .tc .vmem S512x256 .f32) (h6 : a6.IsWhole) (a7 : Memref sig .tc .vmem S512x256 .f32) (h7 : a7.IsWhole) (hc0 : ¬cond0_0 i) (hc1 : cond0_1 i)
    (x0 : Vec F S512x2048 .f32) (x1 : Vec F S256x2048 .i32) (x2 : Vec F S256x16x2 .f32) (xs0 : Vec F S512x256 .f32) :
    out0_B_3 c i a3 h3 a4 h4 a5 h5 a6 h6 a7 h7 hc0 hc1 x0 x1 x2 xs0 = k0_pay2 x1 (scaleCol x2) (zeroCol x2) x0 xs0 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero (S := S512x256) zero_offsets, View.readCov_unit_zero (S := S512x256) _ zero_offsets]
  simp only [View.readAt_eq_ld, h3.read_unread, h4.read_unread, h5.read_unread, h7.read_unread,
    View.ld_unit_zero (S := S512x2048) zero_offsets, View.ld_unit_zero (S := S256x2048) zero_offsets,
    View.ld_unit_zero (S := S512x256) zero_offsets]

end Cert.KernelIdeal.Pieces

end
-- ==== Proof.Blocks.lean ====
/-
  What the region finds in its operand arrays, and what a window's block at a grid point reads of them.

  Before the region the host flattens the activations `x[4, 2048, 4096]` to rows `[8192, 4096]` and exchanges the first
  two axes of the scales-and-zero-points array `[32, 11008, 2]` to `[11008, 32, 2]`; the integer codes are passed as they
  are. The grid has 16 × 43 × 2 points, numbered row-major, so point `t` has row block `t / 86`, feature block
  `t / 2 % 43` and reduction step `t % 2`. A window's block at a point starts at (block index) × (block extent) on each
  axis: entry `(p, c)` of the activations' block is row `512 · (t / 86) + p`, column `2048 · (t % 2) + c`, and likewise
  for the codes (`256` features by `2048` columns) and for the scales and zero points (`256` features by `16` groups).
-/
import proofs.«110867_j55585466745295_1_alg».proof.Proof.Pieces
import Idealize.ShloMosaic.Lib.ValueIdx
import Idealize.ShloMosaic.Lib.StableHlo.Run

noncomputable section

open Idealize.ShloMosaic Idealize.ShloMosaic.TcCoe Idealize.SL.Sem Idealize.ShloMosaic.Tactic Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- The region finds the activations flattened to rows. -/
theorem found_rows (c : Dev nD) : (V m c main_v0 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v0) = _
  after_results
  rfl

/-- It finds the scales and zero points with their first two axes exchanged. -/
theorem found_swapped (c : Dev nD) : (V m c main_v1 : S11008x32x2.Idx → Elt F .f32)
    = transpose S11008x32x2 [1, 0, 2] (m ((c : Thread nD τ).loc main_arg2)) transposes_S32x11008x2_S11008x32x2_1_0_2 := by
  show StableHlo.after hostOps0 (fun b => m (c, b)) (Proc.devRef .tc main_v1) = _
  after_results

/-- The windows' block indices at point `t` of the row-major 16 × 43 × 2 grid, decided once over the grid. -/
theorem block_index : ∀ t : Fin cfg0.N,
    win0_0.index t (0 : Fin 2) = t.val / 86 ∧ win0_0.index t (1 : Fin 2) = t.val % 2
    ∧ win0_1.index t (0 : Fin 2) = t.val / 2 % 43 ∧ win0_1.index t (1 : Fin 2) = t.val % 2
    ∧ win0_2.index t (0 : Fin 3) = t.val / 2 % 43 ∧ win0_2.index t (1 : Fin 3) = t.val % 2 ∧ win0_2.index t (2 : Fin 3) = 0
    ∧ win0_3.index t (0 : Fin 2) = t.val / 86 ∧ win0_3.index t (1 : Fin 2) = t.val / 2 % 43 :=
  (by decide +kernel : ∀ t : Fin grid0.N, _)

/-- Entry `(p, c)` of the activations' block at `t` is the flattened activations at the block's row and column. -/
theorem rows_block (c : Dev nD) (t : Fin cfg0.N) (p : Fin 512) (cc : Fin 2048) (M : Fin 8192) (k : Fin 4096)
    (hM : M.val = win0_0.index t 0 * 512 + p.val) (hk : k.val = win0_0.index t 1 * 2048 + cc.val) :
    (iblk m c 0 t : Vec F S512x2048 .f32) (ix2 p cc) = V m c main_v0 (ix2 M k) := by
  unfold iblk
  rw [View.read_apply]
  show V m c main_v0 _ = V m c main_v0 _
  congr 1
  funext a
  apply Fin.ext
  match a with
  | ⟨0, _⟩ => show win0_0.index t 0 * 512 + 1 * p.val = M.val; omega
  | ⟨1, _⟩ => show win0_0.index t 1 * 2048 + 1 * cc.val = k.val; omega

/-- Entry `(r, c)` of the codes' block at `t` is the code of the block's feature and column. -/
theorem codes_block (c : Dev nD) (t : Fin cfg0.N) (r : Fin 256) (cc : Fin 2048) (n : Fin 11008) (k : Fin 4096)
    (hn : n.val = win0_1.index t 0 * 256 + r.val) (hk : k.val = win0_1.index t 1 * 2048 + cc.val) :
    (iblk m c 1 t : Vec F S256x2048 .i32) (ix2 r cc) = V m c main_arg1 (ix2 n k) := by
  unfold iblk
  rw [View.read_apply]
  show V m c main_arg1 _ = V m c main_arg1 _
  congr 1
  funext a
  apply Fin.ext
  match a with
  | ⟨0, _⟩ => show win0_1.index t 0 * 256 + 1 * r.val = n.val; omega
  | ⟨1, _⟩ => show win0_1.index t 1 * 2048 + 1 * cc.val = k.val; omega

/-- Entry `(r, g, z)` of the scales-and-zero-points block at `t` is the exchanged array at the block's feature and group. -/
theorem groups_block (c : Dev nD) (t : Fin cfg0.N) (r : Fin 256) (g : Fin 16) (z : Fin 2) (n : Fin 11008) (G : Fin 32)
    (hn : n.val = win0_2.index t 0 * 256 + r.val) (hG : G.val = win0_2.index t 1 * 16 + g.val)
    (h2 : win0_2.index t 2 = 0) :
    (iblk m c 2 t : Vec F S256x16x2 .f32) (ix3 r g z) = V m c main_v1 (ix3 n G z) := by
  unfold iblk
  rw [View.read_apply]
  show V m c main_v1 _ = V m c main_v1 _
  congr 1
  funext a
  apply Fin.ext
  match a with
  | ⟨0, _⟩ => show win0_2.index t 0 * 256 + 1 * r.val = n.val; omega
  | ⟨1, _⟩ => show win0_2.index t 1 * 16 + 1 * g.val = G.val; omega
  | ⟨2, _⟩ => show win0_2.index t 2 * 2 + 1 * z.val = z.val; omega

/-- The scale slice of a staged block reads its entries `(r, g, 0)`, -/
theorem scaleCol_apply (x2 : Vec F S256x16x2 .f32) (r : Fin 256) (g : Fin 16) :
    scaleCol x2 (ix3 r g (0 : Fin 1)) = x2 (ix3 r g (0 : Fin 2)) := by
  show x2 _ = x2 _
  congr 1
  funext a
  apply Fin.ext
  match a with
  | ⟨0, _⟩ => show 0 + 1 * r.val = r.val; omega
  | ⟨1, _⟩ => show 0 + 1 * g.val = g.val; omega
  | ⟨2, _⟩ => show 0 + 1 * 0 = 0; rfl

/-- and the zero-point slice its entries `(r, g, 1)`. -/
theorem zeroCol_apply (x2 : Vec F S256x16x2 .f32) (r : Fin 256) (g : Fin 16) :
    zeroCol x2 (ix3 r g (0 : Fin 1)) = x2 (ix3 r g (1 : Fin 2)) := by
  show x2 _ = x2 _
  congr 1
  funext a
  apply Fin.ext
  match a with
  | ⟨0, _⟩ => show 0 + 1 * r.val = r.val; omega
  | ⟨1, _⟩ => show 0 + 1 * g.val = g.val; omega
  | ⟨2, _⟩ => show 1 + 1 * 0 = 1; rfl

end Cert.KernelIdeal.Blocks

end
-- ==== Proof.PointValues.lean ====
/-
  What the accumulator and the output's staging block hold after each grid point.

  Points come in consecutive pairs: an even point `2u` begins the pass over the input features of one output block, the
  odd point `2u + 1` ends it. After the even point the accumulator is one accumulation step, from the zero block, over
  that point's input blocks; after the odd point the output block is one further step over the odd point's input blocks
  from what the even point left. So the written block is `step(blocks at 2u + 1, step(blocks at 2u, 0))`.
-/
import proofs.«110867_j55585466745295_1_alg».proof.Proof.Blocks

noncomputable section

open Idealize.ShloMosaic Idealize.ShloMosaic.TcCoe Idealize.SL.Sem Idealize.ShloMosaic.Tactic Idealize.ShloMosaic.ValueIdx

namespace Cert.KernelIdeal.PointValues

open Cert.KernelIdeal Cert.KernelIdeal.Gen Cert.KernelIdeal.Pieces

variable {F : FTy → Type} [FloatOps F]
variable (m : (ℓ : Loc nD τ sig) → Buf (Elt F) ℓ)

/-- One accumulation step over the input blocks of point `t`, from the accumulator `acc`. -/
abbrev stepAt (c : Dev nD) (t : Fin cfg0.N) (acc : Vec F S512x256 .f32) : Vec F S512x256 .f32 :=
  k0_pay2 (iblk m c 1 t) (scaleCol (iblk m c 2 t)) (zeroCol (iblk m c 2 t)) (iblk m c 0 t) acc

/-- After an even point the accumulator is one step from the zero block. -/
theorem acc_after_even (c : Dev nD) (t : Fin cfg0.N) (h0 : t.val % 2 = 0) :
    (outsAt0 m c t.val t.isLt).2 = stepAt m c t k0_pay1 := by
  have h1 : ¬t.val % 2 = 1 := by omega
  rw [outsAt0_A m c t h0 h1]
  dsimp only
  exact acc_first c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h))
    (iblk m c 0 t) (iblk m c 1 t) (iblk m c 2 t)

/-- After an odd point the output block is one step from what the point before left in the accumulator. -/
theorem out_after_odd (c : Dev nD) (t : Fin cfg0.N) (h1 : t.val % 2 = 1) :
    (outsAt0 m c t.val t.isLt).1
      = stepAt m c t (outsAt0 m c (t.val - 1) (Nat.lt_of_le_of_lt (Nat.sub_le _ _) t.isLt)).2 := by
  have h0 : ¬t.val % 2 = 0 := by omega
  rw [outsAt0_B m c t h0 h1]
  dsimp only
  exact out_last c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2

/-- The block written back at an odd point: two steps from the zero block, over the pair's input blocks. -/
theorem out_after_pair (c : Dev nD) (t : Fin cfg0.N) (h1 : t.val % 2 = 1) :
    (outsAt0 m c t.val t.isLt).1
      = stepAt m c t (stepAt m c ⟨t.val - 1, Nat.lt_of_le_of_lt (Nat.sub_le _ _) t.isLt⟩ k0_pay1) := by
  rw [out_after_odd m c t h1]
  exact congrArg (stepAt m c t)
    (acc_after_even m c ⟨t.val - 1, Nat.lt_of_le_of_lt (Nat.sub_le _ _) t.isLt⟩ (by show (t.val - 1) % 2 = 0; omega))

end Cert.KernelIdeal.PointValues

end
-- ==== Proof.BodyStep.lean ====
/-
  One accumulation step of the kernel body, read at an index, over the extended reals.

  The body dequantizes a 256 × 2048 block of integer weights group by group (128 consecutive columns share one scale and
  one zero point), contracts the 512 × 2048 activation block against it over the 2048 columns, and adds the result to the
  accumulator block.  Over the extended reals the two narrowing format changes are the identity, the transpose and the
  reshapes only re-index, and a matrix product onto a zero accumulator is the plain sum; so the stored value at (p, r) is
      acc[p, r] + ∑_c x[p, c] · ((q[r, c] − 8) · scale[r, c / 128] + zero[r, c / 128]).
-/
import proofs.«110867_j55585466745295_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyStep

open Cert.KernelIdeal Cert.KernelIdeal.Gen Idealize.ShloMosaic Idealize.ShloMosaic.ValueIdx

/-! ## The re-indexing operations, each read at coordinates -/

section Layout
variable {α : Type}

/-- Column c of a row of 2048 is lane c % 128 of group c / 128: the [256, 2048] → [256, 16, 128] reshape read at
    (r, c / 128, c % 128) is the operand at (r, c). -/
theorem split_apply (y : S256x2048.Idx → α) (r : Fin 256) (c : Fin 2048) :
    shapeCast S256x16x128 y shapeCasts_S256x2048_S256x16x128
        (ix3 r (⟨c.val / 128, by have := c.isLt; omega⟩ : Fin 16) (⟨c.val % 128, Nat.mod_lt _ (by decide)⟩ : Fin 128))
      = y (ix2 r c) :=
  shapeCast_apply y shapeCasts_S256x2048_S256x16x128 _ (ix2 r c) (by
    rw [Shape.rowMajor_val_two, Shape.rowMajor_val_three]
    have hc := c.isLt
    show r.val * 2048 + c.val = (r.val * 16 + c.val / 128) * 128 + c.val % 128
    omega)

/-- The [256, 16, 128] → [256, 2048] reshape read at (r, c) is the operand at (r, c / 128, c % 128). -/
theorem merge_apply (y : S256x16x128.Idx → α) (r : Fin 256) (c : Fin 2048) :
    shapeCast S256x2048 y shapeCasts_S256x16x128_S256x2048 (ix2 r c)
      = y (ix3 r (⟨c.val / 128, by have := c.isLt; omega⟩ : Fin 16) (⟨c.val % 128, Nat.mod_lt _ (by decide)⟩ : Fin 128)) :=
  shapeCast_apply y shapeCasts_S256x16x128_S256x2048 (ix2 r c) _ (by
    rw [Shape.rowMajor_val_two, Shape.rowMajor_val_three]
    have hc := c.isLt
    show (r.val * 16 + c.val / 128) * 128 + c.val % 128 = r.val * 2048 + c.val
    omega)

/-- Dropping the trailing unit axis of a [256, 16, 1] column and putting it back changes nothing. -/
theorem column_roundtrip (y : S256x16x1.Idx → α) :
    shapeCast S256x16x1 (shapeCast S256x16 y shapeCasts_S256x16x1_S256x16) shapeCasts_S256x16_S256x16x1 = y :=
  shapeCast_shapeCast y shapeCasts_S256x16x1_S256x16 shapeCasts_S256x16_S256x16x1

/-- A [256, 16, 1] column broadcast along the 128 lanes reads, at (r, g, l), the column's entry (r, g, 0). -/
theorem lanes_apply (y : S256x16x1.Idx → α) (r : Fin 256) (g : Fin 16) (l : Fin 128) :
    broadcastTo S256x16x128 y broadcasts_S256x16x1_S256x16x128 (ix3 r g l) = y (ix3 r g (0 : Fin 1)) :=
  broadcastTo_apply y broadcasts_S256x16x1_S256x16x128 (ix3 r g l) (ix3 r g (0 : Fin 1)) (fun a => match a with
    | ⟨0, _⟩ => by show r.val = if (256 : Nat) = 1 then 0 else r.val; rw [if_neg (by decide)]
    | ⟨1, _⟩ => by show g.val = if (16 : Nat) = 1 then 0 else g.val; rw [if_neg (by decide)]
    | ⟨2, _⟩ => by show (0 : Nat) = if (1 : Nat) = 1 then 0 else l.val; rw [if_pos rfl])

/-- The transpose of a [256, 2048] block read at (c, r) is the block at (r, c). -/
theorem transpose_apply' (y : S256x2048.Idx → α) (c : Fin 2048) (r : Fin 256) :
    transpose S2048x256 [1, 0] y transposes_S256x2048_p1_0_S2048x256 (ix2 c r) = y (ix2 r c) :=
  transpose_apply [1, 0] y transposes_S256x2048_p1_0_S2048x256 (ix2 c r) (ix2 r c) (fun b => match b with
    | ⟨0, _⟩ => rfl
    | ⟨1, _⟩ => rfl)

end Layout

/-! ## The matrix product onto a zero accumulator -/

/-- Left operand index of the product at output (p, r) and contraction coordinate c: (p, c). -/
theorem lhs_idx (p : Fin 512) (r : Fin 256) (c : Fin 2048) :
    dot_S512x2048_S2048x256_S512x256_1_0_0_1_n_n.lhsIdx (ix2 p r)
        ((contrEquiv1 dot_S512x2048_S2048x256_S512x256_1_0_0_1_n_n 2048 rfl rfl).symm c) = ix2 p c := by
  have hk := contrEquiv1_symm_val dot_S512x2048_S2048x256_S512x256_1_0_0_1_n_n 2048 rfl rfl c
  refine funext fun a => Fin.ext ?_
  match a with
  | ⟨0, _⟩ =>
    show (dot_S512x2048_S2048x256_S512x256_1_0_0_1_n_n.lhsIdx (ix2 p r) _ 0).val = p.val
    unfold DotDims.lhsIdx
    rw [dif_neg (show ¬(0 : Fin S512x2048.rank) ∈ dot_S512x2048_S2048x256_S512x256_1_0_0_1_n_n.lhsBatch by decide),
      dif_pos (show (0 : Fin S512x2048.rank) ∈ dot_S512x2048_S2048x256_S512x256_1_0_0_1_n_n.lhsNonContracting by decide)]
    rfl
  | ⟨1, _⟩ =>
    exact (dot_S512x2048_S2048x256_S512x256_1_0_0_1_n_n.lhsIdx_val_of_single rfl (ix2 p r) _).trans hk

/-- Right operand index of the product at output (p, r) and contraction coordinate c: (c, r). -/
theorem rhs_idx (p : Fin 512) (r : Fin 256) (c : Fin 2048) :
    dot_S512x2048_S2048x256_S512x256_1_0_0_1_n_n.rhsIdx (ix2 p r)
        ((contrEquiv1 dot_S512x2048_S2048x256_S512x256_1_0_0_1_n_n 2048 rfl rfl).symm c) = ix2 c r := by
  have hk := contrEquiv1_symm_val dot_S512x2048_S2048x256_S512x256_1_0_0_1_n_n 2048 rfl rfl c
  refine funext fun a => Fin.ext ?_
  match a with
  | ⟨0, _⟩ =>
    exact (dot_S512x2048_S2048x256_S512x256_1_0_0_1_n_n.rhsIdx_val_of_single rfl (ix2 p r) _).trans hk
  | ⟨1, _⟩ =>
    show (dot_S512x2048_S2048x256_S512x256_1_0_0_1_n_n.rhsIdx (ix2 p r) _ 1).val = r.val
    unfold DotDims.rhsIdx
    rw [dif_neg (show ¬(1 : Fin S2048x256.rank) ∈ dot_S512x2048_S2048x256_S512x256_1_0_0_1_n_n.rhsBatch by decide),
      dif_pos (show (1 : Fin S2048x256.rank) ∈ dot_S512x2048_S2048x256_S512x256_1_0_0_1_n_n.rhsNonContracting by decide)]
    rfl

/-- The [512, 2048] × [2048, 256] product onto the zero block, at (p, r): the sum over the 2048 columns. -/
theorem product_apply (a : FVec Ideal S512x2048 .bf16) (b : FVec Ideal S2048x256 .bf16) (p : Fin 512) (r : Fin 256) :
    matmul (F := Ideal) dot_S512x2048_S2048x256_S512x256_1_0_0_1_n_n none a b (constant (F := Ideal) S512x256 .f32 0x00000000#32) (ix2 p r)
      = ∑ c : Fin 2048, a (ix2 p c) * b (ix2 c r) := by
  refine (Ideal.matmul_constant_zero_apply dot_S512x2048_S2048x256_S512x256_1_0_0_1_n_n none a b (ix2 p r)).trans ?_
  rw [← Equiv.sum_comp (contrEquiv1 dot_S512x2048_S2048x256_S512x256_1_0_0_1_n_n 2048 rfl rfl).symm]
  refine Finset.sum_congr rfl fun c _ => ?_
  rw [lhs_idx p r c, rhs_idx p r c]

/-! ## The two payloads -/

/-- The block the first trip stores before accumulating is zero everywhere. -/
theorem reset_apply (j : S512x256.Idx) : k0_pay1 (F := Ideal) j = 0 := by
  unfold k0_pay1
  refine (congrFun (shapeCast_self _ shapeCasts_S512x256_S512x256) j).trans ?_
  exact Ideal.ofBits_zero_f32

/-- One accumulation step at (p, r): the accumulator there plus the block's contraction over its 2048 columns against
    the dequantized weights. -/
theorem step_apply (v3 : Vec Ideal S256x2048 .i32) (v6 v8 : Vec Ideal S256x16x1 .f32) (v19 : Vec Ideal S512x2048 .f32)
    (v23 : Vec Ideal S512x256 .f32) (p : Fin 512) (r : Fin 256) :
    k0_pay2 (F := Ideal) v3 v6 v8 v19 v23 (ix2 p r)
      = v23 (ix2 p r) + ∑ c : Fin 2048, v19 (ix2 p c) *
          ((FloatOps.sitofp (F := Ideal) .f32 (v3 (ix2 r c)) - Ideal.ofBits .f32 0x41000000#32)
              * v6 (ix3 r (⟨c.val / 128, by have := c.isLt; omega⟩ : Fin 16) (0 : Fin 1))
            + v8 (ix3 r (⟨c.val / 128, by have := c.isLt; omega⟩ : Fin 16) (0 : Fin 1))) := by
  unfold k0_pay2
  refine (congrFun (shapeCast_self _ shapeCasts_S512x256_S512x256) (ix2 p r)).trans ?_
  refine congrArg (v23 (ix2 p r) + ·) ?_
  refine (product_apply _ _ p r).trans ?_
  refine Finset.sum_congr rfl fun c _ => ?_
  refine congrArg₂ (· * ·) ?_ ?_
  · exact congrFun (shapeCast_self v19 shapeCasts_S512x2048_S512x2048) (ix2 p c)
  · refine (transpose_apply' _ c r).trans ?_
    refine (truncf_apply (ψ := .bf16) _ bitsLt_bf16_f32 (ix2 r c)).trans ?_
    refine (merge_apply _ r c).trans ?_
    refine congrArg₂ (· + ·) (congrArg₂ (· * ·) (congrArg (· - Ideal.ofBits .f32 0x41000000#32) ?_) ?_) ?_
    · exact split_apply (sitofp .f32 v3) r c
    · refine (lanes_apply _ r _ _).trans ?_
      exact congrFun (column_roundtrip v6) _
    · refine (lanes_apply _ r _ _).trans ?_
      exact congrFun (column_roundtrip v8) _

end Cert.KernelIdeal.BodyStep

end
-- ==== Proof.Layout.lean ====
/-
  The host-side re-indexings around the kernel, read at coordinates, and the cover of the output array by the blocks the
  grid writes back.

  The activations [4, 2048, 4096] are flattened to 8192 rows: row M is (M / 2048, M % 2048).  The scale and zero-point
  array [32, 11008, 2] has its first two axes exchanged.  The result [8192, 11008] is un-flattened to [4, 2048, 11008]:
  entry (b, s, n) is row b · 2048 + s, column n.  The 16 × 43 × 2 grid visits each 512 × 256 output block (I, J) at the two
  consecutive points 2 (43 I + J) and 2 (43 I + J) + 1 and writes it back at the second, the odd one; since
  8192 = 16 · 512 and 11008 = 43 · 256, every entry of the output lies in a block that is written back.
-/
import proofs.«110867_j55585466745295_1_alg».proof.Proof.Gen.KernelIdeal.Frame
import Idealize.ShloMosaic.Lib.ValueIdx
import Idealize.ShloMosaic.Lib.Pipeline.Value

noncomputable section

namespace Cert.KernelIdeal.Layout

open Cert.KernelIdeal Cert.KernelIdeal.Gen Idealize.ShloMosaic Idealize.ShloMosaic.ValueIdx

/-! ## The three re-indexings -/

section Reindex
variable {α : Type}

/-- The flattening [4, 2048, 4096] → [8192, 4096] read at row M, column k: the operand at (M / 2048, M % 2048, k). -/
theorem rows_apply (x : S4x2048x4096.Idx → α) (M : Fin 8192) (k : Fin 4096) :
    shapeCast S8192x4096 x shapeCasts_S4x2048x4096_S8192x4096 (ix2 M k)
      = x (ix3 (⟨M.val / 2048, by have := M.isLt; omega⟩ : Fin 4) (⟨M.val % 2048, by omega⟩ : Fin 2048) k) :=
  shapeCast_apply x shapeCasts_S4x2048x4096_S8192x4096 (ix2 M k) _ (by
    rw [Shape.rowMajor_val_three, Shape.rowMajor_val_two]
    have hM := M.isLt
    show (M.val / 2048 * 2048 + M.val % 2048) * 4096 + k.val = M.val * 4096 + k.val
    omega)

/-- The exchange of the first two axes of the [32, 11008, 2] array read at (n, G, z): the operand at (G, n, z). -/
theorem swap_apply (sz : S32x11008x2.Idx → α) (n : Fin 11008) (G : Fin 32) (z : Fin 2) :
    transpose S11008x32x2 [1, 0, 2] sz transposes_S32x11008x2_S11008x32x2_1_0_2 (ix3 n G z) = sz (ix3 G n z) :=
  transpose_apply [1, 0, 2] sz transposes_S32x11008x2_S11008x32x2_1_0_2 (ix3 n G z) (ix3 G n z) (fun b => match b with
    | ⟨0, _⟩ => rfl
    | ⟨1, _⟩ => rfl
    | ⟨2, _⟩ => rfl)

/-- The un-flattening [8192, 11008] → [4, 2048, 11008] read at (b, s, n): the operand at row b · 2048 + s, column n. -/
theorem unrows_apply (y : S8192x11008.Idx → α) (i : S4x2048x11008.Idx) :
    shapeCast S4x2048x11008 y shapeCasts_S8192x11008_S4x2048x11008 i
      = y (ix2 (⟨(i 0).val * 2048 + (i 1).val, by
            have h0 : (i 0).val < 4 := (i 0).isLt; have h1 : (i 1).val < 2048 := (i 1).isLt; omega⟩ : Fin 8192)
          (⟨(i 2).val, (i 2).isLt⟩ : Fin 11008)) :=
  shapeCast_apply y shapeCasts_S8192x11008_S4x2048x11008 i _ (by
    rw [Shape.rowMajor_val_two, Shape.rowMajor_val_three]
    show ((i 0).val * 2048 + (i 1).val) * 11008 + (i 2).val = ((i 0).val * 2048 + (i 1).val) * 11008 + (i 2).val
    rfl)

end Reindex

/-! ## Every output entry lies in a block that is written back -/

/-- An index of the output array is in point t's block iff each coordinate is in the block's range on its axis. -/
theorem mem_block (t : Fin cfg0.N) (i : S8192x11008.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v2).slice (win0_3.rect t)).set ↔ _
  rw [View.set_slice_whole, Rect.mem_set_unit]
  exact Iff.rfl

/-- The output block of point t, decided once over the grid: block row t / 86, block column (t / 2) % 43. -/
theorem out_index : ∀ t : Fin cfg0.N, win0_3.index t (0 : Fin 2) = t.val / 86 ∧ win0_3.index t (1 : Fin 2) = t.val / 2 % 43 :=
  (by decide +kernel : ∀ t : Fin grid0.N, _)

/-- Entry (R, C) of the output lies in block (R / 512, C / 256), which the odd point 2 (43 (R / 512) + C / 256) + 1
    writes back. -/
theorem written (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, htv⟩ : ∃ t : Fin cfg0.N, t.val = ((i 0).val / 512 * 43 + (i 1).val / 256) * 2 + 1 :=
    ⟨⟨((i 0).val / 512 * 43 + (i 1).val / 256) * 2 + 1,
      lt_of_lt_of_eq (by omega : ((i 0).val / 512 * 43 + (i 1).val / 256) * 2 + 1 < 1376) (show 1376 = cfg0.N from N_0.symm)⟩, rfl⟩
  obtain ⟨e0, e1⟩ := out_index t
  refine ⟨t, (flush0_3 t).mpr (by omega), ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 256 ≤ (i 1).val ∧ (i 1).val < win0_3.index t (1 : Fin 2) * 256 + 256
    omega

end Cert.KernelIdeal.Layout

end
-- ==== Proof.Spec.lean ====
/-
  The mathematics of the group-quantized linear layer, stated once over the extended reals and free of any program.

  The weight of output feature `n` at input feature `k` is dequantized group by group, 128 consecutive input features
  sharing one scale and one zero point:
      w[n, k] = (q[n, k] - 8) · sz[k / 128, n, 0] + sz[k / 128, n, 1],
  and the layer is the contraction  y[b, s, n] = ∑ₖ x[b, s, k] · w[n, k]  over the 4096 input features.

  A sum over 4096 terms is the sum over the first 2048 plus the sum over the last 2048, and adding the first half to a
  zero accumulator changes nothing: both facts hold in every commutative additive monoid, the extended reals included, so
  no finiteness of the entries is asked for.
-/
import Idealize.ShloMosaic.PureOps.Ideal
import Idealize.ShloMosaic.PureOps.Ideal.Laws
import Idealize.ShloMosaic.Lib.ValueIdx

noncomputable section

open scoped BigOperators

namespace Cert.GroupQuant

open Idealize.ShloMosaic Idealize.ShloMosaic.ValueIdx

/-- The quantization group of input feature `k`: 128 consecutive features form one group. -/
abbrev grp (k : Fin 4096) : Fin 32 := ⟨k.val / 128, by have := k.isLt; omega⟩

/-- Input feature `c` of the first half of the contraction. -/
abbrev lo (c : Fin 2048) : Fin 4096 := ⟨c.val, by have := c.isLt; omega⟩
/-- Input feature `2048 + c` of the second half. -/
abbrev hi (c : Fin 2048) : Fin 4096 := ⟨2048 + c.val, by have := c.isLt; omega⟩

/-- The dequantized weight `w[n, k] = (q[n, k] - 8) · scale[k / 128, n] + zero[k / 128, n]`; scale and zero point are the
    two entries of the last axis of `sz`, and `8` is the float whose word is `0x41000000`. -/
def weight (q : (⟨2, ![11008, 4096]⟩ : Shape).Idx → BitVec 32) (sz : (⟨3, ![32, 11008, 2]⟩ : Shape).Idx → EReal)
    (n : Fin 11008) (k : Fin 4096) : EReal :=
  (FloatOps.sitofp (F := Ideal) .f32 (q (ix2 n k)) - Ideal.ofBits .f32 0x41000000#32) * sz (ix3 (grp k) n (0 : Fin 2))
    + sz (ix3 (grp k) n (1 : Fin 2))

/-- The layer: `y[b, s, n] = ∑ₖ x[b, s, k] · w[n, k]`. -/
def layer (x : (⟨3, ![4, 2048, 4096]⟩ : Shape).Idx → EReal) (q : (⟨2, ![11008, 4096]⟩ : Shape).Idx → BitVec 32)
    (sz : (⟨3, ![32, 11008, 2]⟩ : Shape).Idx → EReal) : (⟨3, ![4, 2048, 11008]⟩ : Shape).Idx → EReal :=
  fun i => ∑ k : Fin 4096, x (ix3 (⟨(i 0).val, (i 0).isLt⟩ : Fin 4) (⟨(i 1).val, (i 1).isLt⟩ : Fin 2048) k)
    * weight q sz ⟨(i 2).val, (i 2).isLt⟩ k

/-- A sum over the 4096 input features is the sum over the first 2048 plus the sum over the last 2048. -/
theorem sum_halves {M : Type*} [AddCommMonoid M] (f : Fin 4096 → M) :
    ∑ k : Fin 4096, f k = (∑ c : Fin 2048, f (lo c)) + ∑ c : Fin 2048, f (hi c) :=
  Fin.sum_univ_add (a := 2048) (b := 2048) f

/-- The contraction accumulated in two steps from a zero accumulator — `(0 + first half) + second half` — is the
    whole contraction. -/
theorem two_steps {M : Type*} [AddCommMonoid M] (f : Fin 4096 → M) :
    (0 + ∑ c : Fin 2048, f (lo c)) + ∑ c : Fin 2048, f (hi c) = ∑ k : Fin 4096, f k := by
  rw [zero_add, sum_halves]

end Cert.GroupQuant

end
-- ==== Proof.Result.lean ====
/-
  The kernel's result, at the ideal instance.

  Entry `(p, r)` of the block written back at the odd point `t` is
      (0 + ∑_{c < 2048} X[row, c] · w[n, c]) + ∑_{c < 2048} X[row, 2048 + c] · w[n, 2048 + c],
  where `row = 512 · (t / 86) + p` is a row of the flattened activations, `n = 256 · (t / 2 % 43) + r` an output feature
  and `w` the dequantized weight: the even point of the pair contributes the first 2048 input features onto a zero
  accumulator, the odd point the last 2048. By the law of the two halves this is the whole contraction, so the
  `[8192, 11008]` array the region writes is the layer with its rows flattened, and the reshape after the region gives the
  layer itself.
-/
import proofs.«110867_j55585466745295_1_alg».proof.Proof.PointValues
import proofs.«110867_j55585466745295_1_alg».proof.Proof.BodyStep
import proofs.«110867_j55585466745295_1_alg».proof.Proof.Layout
import proofs.«110867_j55585466745295_1_alg».proof.Proof.Spec

noncomputable section

open scoped BigOperators
open Idealize.ShloMosaic Idealize.ShloMosaic.TcCoe Idealize.SL.Sem Idealize.ShloMosaic.Tactic Idealize.ShloMosaic.ValueIdx
open Idealize.ShloMosaic.Pipeline (Dat)

namespace Cert.KernelIdeal.Result

open Cert.KernelIdeal Cert.KernelIdeal.Gen Cert.KernelIdeal.Pieces Cert.KernelIdeal.Blocks Cert.KernelIdeal.PointValues
open Cert.KernelIdeal.BodyStep Cert.KernelIdeal.Layout Cert.GroupQuant

variable (m : (ℓ : Loc nD τ sig) → Buf (Elt Ideal) ℓ) (ρ : Dev nD → PrngReg)

/-- The three argument arrays as the program is launched with them. -/
abbrev argX (c : Dev nD) : S4x2048x4096.Idx → EReal := m ((c : Thread nD τ).loc main_arg0)
abbrev argQ (c : Dev nD) : S11008x4096.Idx → BitVec 32 := m ((c : Thread nD τ).loc main_arg1)
abbrev argSZ (c : Dev nD) : S32x11008x2.Idx → EReal := m ((c : Thread nD τ).loc main_arg2)

/-- The three input blocks of point `t`: activations, integer codes, scales and zero points. -/
abbrev actBlk (c : Dev nD) (t : Fin cfg0.N) : Vec Ideal S512x2048 .f32 := iblk m c 0 t
abbrev codeBlk (c : Dev nD) (t : Fin cfg0.N) : Vec Ideal S256x2048 .i32 := iblk m c 1 t
abbrev groupBlk (c : Dev nD) (t : Fin cfg0.N) : Vec Ideal S256x16x2 .f32 := iblk m c 2 t

/-- One term of a point's partial product, in the argument arrays: the activation of row `2048 b + s` at input feature
    `k` times the dequantized weight of output feature `n` there, `k` being column `cc` of the point's reduction step. -/
theorem term_eq (c : Dev nD) (t : Fin cfg0.N) (p : Fin 512) (r : Fin 256) (cc : Fin 2048)
    (b : Fin 4) (s : Fin 2048) (n : Fin 11008) (k : Fin 4096)
    (hb : b.val = (t.val / 86 * 512 + p.val) / 2048) (hs : s.val = (t.val / 86 * 512 + p.val) % 2048)
    (hn : n.val = t.val / 2 % 43 * 256 + r.val) (hk : k.val = t.val % 2 * 2048 + cc.val) :
    actBlk m c t (ix2 p cc)
        * ((FloatOps.sitofp (F := Ideal) .f32 (codeBlk m c t (ix2 r cc)) - Ideal.ofBits .f32 0x41000000#32)
            * scaleCol (groupBlk m c t) (ix3 r (⟨cc.val / 128, by have := cc.isLt; omega⟩ : Fin 16) (0 : Fin 1))
          + zeroCol (groupBlk m c t) (ix3 r (⟨cc.val / 128, by have := cc.isLt; omega⟩ : Fin 16) (0 : Fin 1)))
      = argX m c (ix3 b s k) * weight (argQ m c) (argSZ m c) n k := by
  unfold actBlk codeBlk groupBlk
  obtain ⟨e00, e01, e10, e11, e20, e21, e22, -, -⟩ := block_index t
  have hN : t.val < 1376 := lt_of_lt_of_eq t.isLt (show cfg0.N = 1376 from N_0)
  have hp := p.isLt
  have hr := r.isLt
  have hc := cc.isLt
  rw [rows_block m c t p cc ⟨t.val / 86 * 512 + p.val, by omega⟩ k (by rw [e00]) (by rw [e01]; exact hk),
    found_rows, rows_apply]
  rw [codes_block m c t r cc n k (by rw [e10]; exact hn) (by rw [e11]; exact hk), V_main_arg1]
  rw [scaleCol_apply, zeroCol_apply,
    groups_block m c t r _ (0 : Fin 2) n (grp k) (by rw [e20]; exact hn) (by show k.val / 128 = win0_2.index t 1 * 16 + cc.val / 128; omega) e22,
    groups_block m c t r _ (1 : Fin 2) n (grp k) (by rw [e20]; exact hn) (by show k.val / 128 = win0_2.index t 1 * 16 + cc.val / 128; omega) e22,
    found_swapped, swap_apply, swap_apply]
  have eb : (⟨(t.val / 86 * 512 + p.val) / 2048, by omega⟩ : Fin 4) = b := Fin.ext hb.symm
  have es : (⟨(t.val / 86 * 512 + p.val) % 2048, by omega⟩ : Fin 2048) = s := Fin.ext hs.symm
  rw [eb, es]
  rfl

/-- Entry `(p, r)` of the block written back at the odd point `t` is the whole contraction. -/
theorem written_entry (c : Dev nD) (t : Fin cfg0.N) (h1 : t.val % 2 = 1) (p : Fin 512) (r : Fin 256)
    (b : Fin 4) (s : Fin 2048) (n : Fin 11008)
    (hb : b.val = (t.val / 86 * 512 + p.val) / 2048) (hs : s.val = (t.val / 86 * 512 + p.val) % 2048)
    (hn : n.val = t.val / 2 % 43 * 256 + r.val) :
    (outsAt0 m c t.val t.isLt).1 (ix2 p r) = ∑ k : Fin 4096, argX m c (ix3 b s k) * weight (argQ m c) (argSZ m c) n k := by
  have hN : t.val < 1376 := lt_of_lt_of_eq t.isLt (show cfg0.N = 1376 from N_0)
  have hlt : t.val - 1 < cfg0.N := Nat.lt_of_le_of_lt (Nat.sub_le _ _) t.isLt
  rw [out_after_pair m c t h1]
  refine (step_apply (iblk m c 1 t) (scaleCol (iblk m c 2 t)) (zeroCol (iblk m c 2 t)) (iblk m c 0 t) _ p r).trans ?_
  rw [show stepAt m c ⟨t.val - 1, hlt⟩ (k0_pay1 (F := Ideal)) (ix2 p r) = _ from
    step_apply (iblk m c 1 ⟨t.val - 1, hlt⟩) (scaleCol (iblk m c 2 ⟨t.val - 1, hlt⟩)) (zeroCol (iblk m c 2 ⟨t.val - 1, hlt⟩))
      (iblk m c 0 ⟨t.val - 1, hlt⟩) (k0_pay1 (F := Ideal)) p r, reset_apply]
  rw [← two_steps (fun k => argX m c (ix3 b s k) * weight (argQ m c) (argSZ m c) n k)]
  congr 1
  · congr 1
    exact Finset.sum_congr rfl fun cc _ => term_eq m c ⟨t.val - 1, hlt⟩ p r cc b s n (lo cc)
      (by show b.val = ((t.val - 1) / 86 * 512 + p.val) / 2048; rw [hb]; omega)
      (by show s.val = ((t.val - 1) / 86 * 512 + p.val) % 2048; rw [hs]; omega)
      (by show n.val = (t.val - 1) / 2 % 43 * 256 + r.val; rw [hn]; omega)
      (by show cc.val = (t.val - 1) % 2 * 2048 + cc.val; omega)
  · exact Finset.sum_congr rfl fun cc _ => term_eq m c t p r cc b s n (hi cc) hb hs hn
      (by show 2048 + cc.val = t.val % 2 * 2048 + cc.val; omega)

/-- The array the region writes: the layer with the two leading axes of its rows flattened. -/
def rowsOut (c : Dev nD) : S8192x11008.Idx → EReal := fun i =>
  ∑ k : Fin 4096, argX m c (ix3 (⟨(i 0).val / 2048, by have h : (i 0).val < 8192 := (i 0).isLt; omega⟩ : Fin 4)
      (⟨(i 0).val % 2048, by omega⟩ : Fin 2048) k)
    * weight (argQ m c) (argSZ m c) (⟨(i 1).val, (i 1).isLt⟩ : Fin 11008) k

/-- What an odd point writes back is its block of that array. -/
theorem flushed_eq (c : Dev nD) (t : Fin cfg0.N) (hf : (cfg0.win 3).flush t = true) :
    (dats m 0 c).flushed 3 t = ((cfg0.win 3).blk t).view.read (Elt Ideal) (rowsOut m c) := by
  have h1 : t.val % 2 = 1 := (flush0_3 t).mp hf
  have hN : t.val < 1376 := lt_of_lt_of_eq t.isLt (show cfg0.N = 1376 from N_0)
  obtain ⟨-, -, -, -, -, -, -, e30, e31⟩ := block_index t
  show (cfg0.win 3).cut (grid0.coords t) ((dats m 0 c).after 3 t) = _
  rw [after0_3]
  funext j
  obtain ⟨p, r, rfl⟩ : ∃ (p : Fin 512) (r : Fin 256), j = ix2 p r := ⟨j 0, j 1, eq_ix2 j⟩
  rw [View.read_apply]
  show (outsAt0 m c t.val t.isLt).1 (ix2 p r) = rowsOut m c (((cfg0.win 3).blk t).view.emb (ix2 p r))
  have hp := p.isLt
  have hr := r.isLt
  exact written_entry m c t h1 p r _ _ _
    (by show (win0_3.index t 0 * 512 + 1 * p.val) / 2048 = _; rw [e30]; omega)
    (by show (win0_3.index t 0 * 512 + 1 * p.val) % 2048 = _; rw [e30]; omega)
    (by show win0_3.index t 1 * 256 + 1 * r.val = _; rw [e31]; omega)

/-- So the region's output array ends holding it: the odd points' blocks tile the array. -/
theorem final (c : Dev nD) : (dats m 0 c).arrAt 3 cfg0.N = rowsOut m c :=
  (dats m 0 c).arrAt_eq_of_cover 3 (rowsOut m c) (fun t hf => flushed_eq m c t hf) written

/-- That array at row `M = 2048 b + s` and feature `n`. -/
theorem rowsOut_apply (c : Dev nD) (M : Fin 8192) (n : Fin 11008) (b : Fin 4) (s : Fin 2048)
    (hb : b.val = M.val / 2048) (hs : s.val = M.val % 2048) :
    rowsOut m c (ix2 M n) = ∑ k : Fin 4096, argX m c (ix3 b s k) * weight (argQ m c) (argSZ m c) n k := by
  have hM := M.isLt
  have eb : (⟨M.val / 2048, by omega⟩ : Fin 4) = b := Fin.ext hb.symm
  have es : (⟨M.val % 2048, by omega⟩ : Fin 2048) = s := Fin.ext hs.symm
  show ∑ k : Fin 4096, argX m c (ix3 (⟨M.val / 2048, by omega⟩ : Fin 4) (⟨M.val % 2048, by omega⟩ : Fin 2048) k)
      * weight (argQ m c) (argSZ m c) n k = _
  rw [eb, es]

/-- Un-flattening its rows gives the layer. -/
theorem rows_unflattened (c : Dev nD) :
    shapeCast S4x2048x11008 (rowsOut m c) shapeCasts_S8192x11008_S4x2048x11008
      = layer (argX m c) (argQ m c) (argSZ m c) := by
  funext i
  have h0 : (i 0).val < 4 := (i 0).isLt
  have h1 : (i 1).val < 2048 := (i 1).isLt
  rw [unrows_apply]
  exact rowsOut_apply m c _ _ ⟨(i 0).val, (i 0).isLt⟩ ⟨(i 1).val, (i 1).isLt⟩
    (by show (i 0).val = ((i 0).val * 2048 + (i 1).val) / 2048; omega)
    (by show (i 1).val = ((i 0).val * 2048 + (i 1).val) % 2048; omega)

/-- The program's result — the region's array after the reshape that follows the region — is the layer. -/
theorem tail_eq (c : Dev nD) :
    Pipeline.afterTail₀ cfgs (dats m) 0 (V0 m) [hostOps1] c main_v3 = layer (argX m c) (argQ m c) (argSZ m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = rowsOut m c :=
    (Pipeline.withArrays_arr spec0 launch0.win.arr_inj c _ _ 3).trans (final m c)
  rw [e]
  exact rows_unflattened m c

/-- The run, read: every weakly fair execution ends with the result at the layer of the arguments, the arguments
    unchanged. -/
theorem run : θ_run defs (onTc (τ := τ) (main (F := Ideal))) ⟨m, fun _ => 0, ρ⟩ fun r => ∀ c : Dev nD,
      r.2.mem ((c.tc : Thread nD τ).loc main_v3) = layer (argX m c) (argQ m c) (argSZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.RefLayer.lean ====
/-
  The reference program's last stage is the group-quantized linear layer of the specification.

  The reference dequantizes the whole 11008 × 4096 integer weight array: it views a row of 4096 as 32 groups of 128,
  subtracts 8, multiplies by the group's scale and adds the group's zero point (scale and zero point being the two
  entries of the last axis of the [32, 11008, 2] array, sliced, reshaped, transposed and broadcast along the lanes), views
  the result as 11008 × 4096 again, and contracts the activations against it over the 4096 input features.  Read at an
  index, every layout stage only re-indexes, so the dequantized entry at (n, k) is
      (q[n, k] − 8) · sz[k / 128, n, 0] + sz[k / 128, n, 1],
  and the contraction is the specification's sum.
-/
import proofs.«110867_j55585466745295_1_alg».proof.Proof.Gen.ReferenceIdeal.Read
import proofs.«110867_j55585466745295_1_alg».proof.Proof.Spec

noncomputable section

open scoped BigOperators

namespace Cert.ReferenceIdeal.RefLayer

open Cert.ReferenceIdeal Cert.ReferenceIdeal.Read Cert.GroupQuant Idealize.ShloMosaic Idealize.ShloMosaic.ValueIdx

/-! ## The composed index maps, at coordinates -/

/-- Row n, column k of the weights, viewed as (n, k / 128, k % 128) and back, is (n, k). -/
theorem idx_q (n : Fin 11008) (k : Fin 4096) : idx_main_v7 (idx_main_v16 (ix2 n k)) = ix2 n k := by
  have hn := n.isLt
  have hk := k.isLt
  refine funext fun a => Fin.ext ?_
  match a with
  | ⟨0, _⟩ =>
    show (((n.val * 4096 + k.val) / 4096 * 32 + (n.val * 4096 + k.val) / 128 % 32) * 128 + (n.val * 4096 + k.val) % 128) / 4096 = n.val
    omega
  | ⟨1, _⟩ =>
    show (((n.val * 4096 + k.val) / 4096 * 32 + (n.val * 4096 + k.val) / 128 % 32) * 128 + (n.val * 4096 + k.val) % 128) % 4096 = k.val
    omega

/-- The scale read for the weight at (n, k) is entry (k / 128, n, 0) of the scale and zero-point array. -/
theorem idx_scale (n : Fin 11008) (k : Fin 4096) :
    idx_main_v0 (idx_main_v1 (idx_main_v2 (idx_main_v10 (idx_main_v11 (idx_main_v16 (ix2 n k))))))
      = ix3 (grp k) n (0 : Fin 2) := by
  have hn := n.isLt
  have hk := k.isLt
  refine funext fun a => Fin.ext ?_
  match a with
  | ⟨0, _⟩ =>
    show ((n.val * 4096 + k.val) / 128 % 32 * 11008 + (n.val * 4096 + k.val) / 4096) / 11008 = k.val / 128
    omega
  | ⟨1, _⟩ =>
    show ((n.val * 4096 + k.val) / 128 % 32 * 11008 + (n.val * 4096 + k.val) / 4096) / 1 % 11008 = n.val
    omega
  | ⟨2, _⟩ => rfl

/-- The zero point read for the weight at (n, k) is entry (k / 128, n, 1). -/
theorem idx_zero (n : Fin 11008) (k : Fin 4096) :
    idx_main_v3 (idx_main_v4 (idx_main_v5 (idx_main_v13 (idx_main_v14 (idx_main_v16 (ix2 n k))))))
      = ix3 (grp k) n (1 : Fin 2) := by
  have hn := n.isLt
  have hk := k.isLt
  refine funext fun a => Fin.ext ?_
  match a with
  | ⟨0, _⟩ =>
    show ((n.val * 4096 + k.val) / 128 % 32 * 11008 + (n.val * 4096 + k.val) / 4096) / 11008 = k.val / 128
    omega
  | ⟨1, _⟩ =>
    show ((n.val * 4096 + k.val) / 128 % 32 * 11008 + (n.val * 4096 + k.val) / 4096) / 1 % 11008 = n.val
    omega
  | ⟨2, _⟩ => rfl

/-! ## The dequantized weight array is the specification's weight -/

/-- The reference's dequantized weights at (n, k). -/
theorem weight_apply (q : (⟨S11008x4096, .i32⟩ : BufTy).Contents (Elt Ideal))
    (sz : (⟨S32x11008x2, .f32⟩ : BufTy).Contents (Elt Ideal)) (n : Fin 11008) (k : Fin 4096) :
    val_main_v16 (F := Ideal) q sz (ix2 n k) = weight q sz n k := by
  rw [val_main_v16_apply, val_main_v15_apply, val_main_v12_apply, val_main_v14_apply, val_main_v9_apply,
    val_main_v11_apply, val_main_v13_apply, val_main_v7_apply, val_main_v8_apply, val_main_v10_apply,
    val_main_v6_apply, val_main_cst_apply, val_main_v2_apply, val_main_v5_apply, val_main_v1_apply,
    val_main_v4_apply, val_main_v0_apply, val_main_v3_apply]
  rw [idx_q n k, idx_scale n k, idx_zero n k]
  rfl

/-! ## The last stage -/

/-- The reference's result is the layer of the specification. -/
theorem layer_eq (x : (⟨Cert.ReferenceIdeal.S4x2048x4096, .f32⟩ : BufTy).Contents (Elt Ideal))
    (q : (⟨Cert.ReferenceIdeal.S11008x4096, .i32⟩ : BufTy).Contents (Elt Ideal))
    (sz : (⟨Cert.ReferenceIdeal.S32x11008x2, .f32⟩ : BufTy).Contents (Elt Ideal)) :
    Cert.ReferenceIdeal.Read.val_main_v17 (F := Ideal) x q sz = Cert.GroupQuant.layer x q sz := by
  funext i
  rw [val_main_v17_apply]
  refine Finset.sum_congr rfl fun k _ => ?_
  have el : lidx_main_v17 i k = ix3 (⟨(i 0).val, (i 0).isLt⟩ : Fin 4) (⟨(i 1).val, (i 1).isLt⟩ : Fin 2048) k :=
    funext fun a => by
      match a with
      | ⟨0, _⟩ => rfl
      | ⟨1, _⟩ => rfl
      | ⟨2, _⟩ => rfl
  have er : ridx_main_v17 i k = ix2 (⟨(i 2).val, (i 2).isLt⟩ : Fin 11008) k :=
    funext fun a => by
      match a with
      | ⟨0, _⟩ => rfl
      | ⟨1, _⟩ => rfl
  rw [el, er, weight_apply]

end Cert.ReferenceIdeal.RefLayer

end
-- ==== Proof.lean ====
/-
  A linear layer whose weight is stored as integer codes and dequantized group by group,
      w[n, k] = (q[n, k] - 8) · scale[k / 128, n] + zero[k / 128, n],      y[b, s, n] = ∑ₖ x[b, s, k] · w[n, k],
  computed by a tiled kernel against the plain contraction.

  The kernel tiles the flattened rows (512 at a time), the output features (256 at a time) and the 4096 input features
  (2048 at a time). For each output block it makes two consecutive steps: the first zeroes an accumulator and adds the
  block's partial product over the first 2048 input features, the second adds the partial product over the last 2048 and
  writes the block out. Over the extended reals the narrowing of both factors to bf16 is the identity and a product onto
  a zero accumulator is the plain sum, so the written entry is `(0 + first half) + second half`; a sum over 4096 terms is
  the sum of its two halves, and `0 + a = a`. Both hold in every commutative additive monoid, so the two programs agree
  entry by entry on every input, finite or not: the precondition is not used.

  Proof/Spec.lean states the layer and the law of the two halves; Proof/RefLayer.lean reads the reference as the layer;
  Proof/BodyStep.lean reads one accumulation step of the kernel body at an entry; Proof/Pieces.lean, Proof/Blocks.lean,
  Proof/PointValues.lean and Proof/Layout.lean say what a grid point's blocks are and what it leaves behind;
  Proof/Result.lean joins them into the kernel's result. The idealization rewrote nothing, so `preserves` is `True`.
-/
import proofs.«110867_j55585466745295_1_alg».proof.Defs
import proofs.«110867_j55585466745295_1_alg».proof.Proof.Gen.Kernel
import proofs.«110867_j55585466745295_1_alg».proof.Proof.Gen.Kernel.Frame
import proofs.«110867_j55585466745295_1_alg».proof.Proof.Gen.KernelIdeal
import proofs.«110867_j55585466745295_1_alg».proof.Proof.Gen.KernelIdeal.Frame
import proofs.«110867_j55585466745295_1_alg».proof.Proof.Gen.ReferenceIdeal
import proofs.«110867_j55585466745295_1_alg».proof.Proof.Gen.ReferenceIdeal.Run
import proofs.«110867_j55585466745295_1_alg».proof.Proof.Gen.Pre_finite_inputs
import proofs.«110867_j55585466745295_1_alg».proof.Proof.Result
import proofs.«110867_j55585466745295_1_alg».proof.Proof.RefLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their arguments, and the arguments agree. -/
theorem algebraic : Cert.algebraic_KernelIdeal_ReferenceIdeal := by
  intro m ρ m' ρ' _ hagree
  refine ⟨fun c => Cert.GroupQuant.layer (Cert.KernelIdeal.Result.argX m c) (Cert.KernelIdeal.Result.argQ m c)
    (Cert.KernelIdeal.Result.argSZ m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefLayer.layer_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
